-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v68)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_arg5)) (v3 : (c : Dev Cert.KernelIdeal.nD) → Buf (Elt Ideal) ((c.tc : Thread Cert.KernelIdeal.nD Cert.KernelIdeal.τ).loc Cert.KernelIdeal.main_arg2)) (v4 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg5) = v2 c
          ∧ r.2.mem ((c.tc : Thread Cert.KernelIdeal.nD Cert.KernelIdeal.τ).loc Cert.KernelIdeal.main_arg2) = v3 c
          ∧ r.2.mem ((c.tc : Thread Cert.KernelIdeal.nD Cert.KernelIdeal.τ).loc Cert.KernelIdeal.main_v69) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg5) = v2 c
          ∧ r.2.mem ((c.tc : Thread Cert.ReferenceIdeal.nD Cert.ReferenceIdeal.τ).loc Cert.ReferenceIdeal.main_arg2) = v3 c
          ∧ r.2.mem ((c.tc : Thread Cert.ReferenceIdeal.nD Cert.ReferenceIdeal.τ).loc Cert.ReferenceIdeal.main_v71) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x256 : Shape := ⟨3, ![32, 64, 256]⟩
abbrev S32x2048x256 : Shape := ⟨3, ![32, 2048, 256]⟩
abbrev S262144 : Shape := ⟨1, ![262144]⟩
abbrev S256x256 : Shape := ⟨2, ![256, 256]⟩
abbrev S32 : Shape := ⟨1, ![32]⟩
abbrev S2x262144 : Shape := ⟨2, ![2, 262144]⟩
abbrev S_ : Shape := ⟨0, ![]⟩

class Facts : Prop where
  bcast_S_S32x64x256 : S_.BroadcastsInDim S32x64x256 (![] : Fin 0 → Fin S32x64x256.rank)
  reducesTo_S32x64x256_S_d0_1_2 : S32x64x256.ReducesTo [0, 1, 2] S_
  h_S_ : 0 < S_.numel
  bcast_S_S32x2048x256 : S_.BroadcastsInDim S32x2048x256 (![] : Fin 0 → Fin S32x2048x256.rank)
  reducesTo_S32x2048x256_S_d0_1_2 : S32x2048x256.ReducesTo [0, 1, 2] S_
  bcast_S_S262144 : S_.BroadcastsInDim S262144 (![] : Fin 0 → Fin S262144.rank)
  reducesTo_S262144_S_d0 : S262144.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S32x64x256 .f32) (main_arg1 : FVec F S32x2048x256 .f32) (main_arg2 : FVec F S262144 .f32) (main_arg3 : FVec F S256x256 .f32) (main_arg4 : IVec S32 32) (main_arg5 : IVec S2x262144 32) (main_arg6 : IVec S32 32) : IVec S_ 1 :=
  let main_v0 : FVec F S32x64x256 .f32 := Host.absf main_arg0
  let main_cst : FVec F S_ .f32 := constant S_ .f32 0x7F800000#32
  let main_v1 : FVec F S32x64x256 .f32 := broadcastInDim S32x64x256 ![] bcast_S_S32x64x256 main_cst
  let main_v2 : IVec S32x64x256 1 := cmpf .olt main_v0 main_v1
  let main_c : IVec S_ 1 := constantI S_ 1 1#1
  let main_v3 : IVec S_ 1 := (fun x v => Host.reduce IntOp.andi x v reducesTo_S32x64x256_S_d0_1_2 h_S_) main_v2 main_c
  let main_v4 : FVec F S32x2048x256 .f32 := Host.absf main_arg1
  let main_cst_0 : FVec F S_ .f32 := constant S_ .f32 0x7F800000#32
  let main_v5 : FVec F S32x2048x256 .f32 := broadcastInDim S32x2048x256 ![] bcast_S_S32x2048x256 main_cst_0
  let main_v6 : IVec S32x2048x256 1 := cmpf .olt main_v4 main_v5
  let main_c_1 : IVec S_ 1 := constantI S_ 1 1#1
  let main_v7 : IVec S_ 1 := (fun x v => Host.reduce IntOp.andi x v reducesTo_S32x2048x256_S_d0_1_2 h_S_) main_v6 main_c_1
  let main_v8 : IVec S_ 1 := andi main_v3 main_v7
  let main_v9 : FVec F S262144 .f32 := Host.absf main_arg2
  let main_cst_2 : FVec F S_ .f32 := constant S_ .f32 0x7F800000#32
  let main_v10 : FVec F S262144 .f32 := broadcastInDim S262144 ![] bcast_S_S262144 main_cst_2
  let main_v11 : IVec S262144 1 := cmpf .olt main_v9 main_v10
  let main_c_3 : IVec S_ 1 := constantI S_ 1 1#1
  let main_v12 : IVec S_ 1 := (fun x v => Host.reduce IntOp.andi x v reducesTo_S262144_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S32x64x256 : Shape := ⟨3, ![32, 64, 256]⟩
abbrev S32x2048x256 : Shape := ⟨3, ![32, 2048, 256]⟩
abbrev S262144 : Shape := ⟨1, ![262144]⟩
abbrev S256x256 : Shape := ⟨2, ![256, 256]⟩
abbrev S32 : Shape := ⟨1, ![32]⟩
abbrev S2x262144 : Shape := ⟨2, ![2, 262144]⟩
abbrev S64 : Shape := ⟨1, ![64]⟩
abbrev S1x64 : Shape := ⟨2, ![1, 64]⟩
abbrev S32x1 : Shape := ⟨2, ![32, 1]⟩
abbrev S32x64 : Shape := ⟨2, ![32, 64]⟩
abbrev S_ : Shape := ⟨0, ![]⟩
abbrev S32x64x1 : Shape := ⟨3, ![32, 64, 1]⟩
abbrev S32x64x2 : Shape := ⟨3, ![32, 64, 2]⟩
abbrev S65536x256 : Shape := ⟨2, ![65536, 256]⟩
abbrev S1x262144 : Shape := ⟨2, ![1, 262144]⟩
abbrev S262144x1 : Shape := ⟨2, ![262144, 1]⟩
abbrev S262144x256 : Shape := ⟨2, ![262144, 256]⟩
abbrev S2048x256 : Shape := ⟨2, ![2048, 256]⟩

abbrev nBuf : Space → Nat
  | .hbm => 102
  | .vmem => 7
  | .smem => 0
  | _ => 0

abbrev bufTy : (tb : Table) → Fin (tcTables nBuf tb) → BufTy
  | .hbm, ⟨0, _⟩ => ⟨S32x64x256, .f32⟩
  | .hbm, ⟨1, _⟩ => ⟨S32x2048x256, .f32⟩
  | .hbm, ⟨2, _⟩ => ⟨S262144, .f32⟩
  | .hbm, ⟨3, _⟩ => ⟨S256x256, .f32⟩
  | .hbm, ⟨4, _⟩ => ⟨S32, .i32⟩
  | .hbm, ⟨5, _⟩ => ⟨S2x262144, .i32⟩
  | .hbm, ⟨6, _⟩ => ⟨S32, .i32⟩
  | .hbm, ⟨7, _⟩ => ⟨S64, .i32⟩
  | .hbm, ⟨8, _⟩ => ⟨S1x64, .i32⟩
  | .hbm, ⟨9, _⟩ => ⟨S32x1, .i32⟩
  | .hbm, ⟨10, _⟩ => ⟨S32x64, .i32⟩
  | .hbm, ⟨11, _⟩ => ⟨S32x64, .i32⟩
  | .hbm, ⟨12, _⟩ => ⟨S32x64, .i1⟩
  | .hbm, ⟨13, _⟩ => ⟨S32x1, .i32⟩
  | .hbm, ⟨14, _⟩ => ⟨S1x64, .i32⟩
  | .hbm, ⟨15, _⟩ => ⟨S32x64, .i32⟩
  | .hbm, ⟨16, _⟩ => ⟨S32x64, .i32⟩
  | .hbm, ⟨17, _⟩ => ⟨S32x64, .i32⟩
  | .hbm, ⟨18, _⟩ => ⟨S_, .i32⟩
  | .hbm, ⟨19, _⟩ => ⟨S_, .i32⟩
  | .hbm, ⟨20, _⟩ => ⟨S32x64, .i32⟩
  | .hbm, ⟨21, _⟩ => ⟨S32x64, .i32⟩
  | .hbm, ⟨22, _⟩ => ⟨S32, .i32⟩
  | .hbm, ⟨23, _⟩ => ⟨S32x1, .i32⟩
  | .hbm, ⟨24, _⟩ => ⟨S32x64, .i32⟩
  | .hbm, ⟨25, _⟩ => ⟨S_, .i32⟩
  | .hbm, ⟨26, _⟩ => ⟨S32x64, .i32⟩
  | .hbm, ⟨27, _⟩ => ⟨S32x64, .i1⟩
  | .hbm, ⟨28, _⟩ => ⟨S_, .i32⟩
  | .hbm, ⟨29, _⟩ => ⟨S32x64, .i32⟩
  | .hbm, ⟨30, _⟩ => ⟨S32x64, .i32⟩
  | .hbm, ⟨31, _⟩ => ⟨S32x64, .i32⟩
  | .hbm, ⟨32, _⟩ => ⟨S_, .i32⟩
  | .hbm, ⟨33, _⟩ => ⟨S32x64, .i32⟩
  | .hbm, ⟨34, _⟩ => ⟨S32x64, .i1⟩
  | .hbm, ⟨35, _⟩ => ⟨S_, .i32⟩
  | .hbm, ⟨36, _⟩ => ⟨S32x64, .i32⟩
  | .hbm, ⟨37, _⟩ => ⟨S32x64, .i32⟩
  | .hbm, ⟨38, _⟩ => ⟨S32x64, .i32⟩
  | .hbm, ⟨39, _⟩ => ⟨S32x64x1, .i32⟩
  | .hbm, ⟨40, _⟩ => ⟨S32x64x1, .i32⟩
  | .hbm, ⟨41, _⟩ => ⟨S32x64x2, .i32⟩
  | .hbm, ⟨42, _⟩ => ⟨S32x2048x256, .f32⟩
  | .hbm, ⟨43, _⟩ => ⟨S65536x256, .f32⟩
  | .hbm, ⟨44, _⟩ => ⟨S1x262144, .i32⟩
  | .hbm, ⟨45, _⟩ => ⟨S262144, .i32⟩
  | .hbm, ⟨46, _⟩ => ⟨S1x262144, .i32⟩
  | .hbm, ⟨47, _⟩ => ⟨S262144, .i32⟩
  | .hbm, ⟨48, _⟩ => ⟨S_, .i32⟩
  | .hbm, ⟨49, _⟩ => ⟨S262144, .i32⟩
  | .hbm, ⟨50, _⟩ => ⟨S262144, .i1⟩
  | .hbm, ⟨51, _⟩ => ⟨S_, .i32⟩
  | .hbm, ⟨52, _⟩ => ⟨S262144, .i32⟩
  | .hbm, ⟨53, _⟩ => ⟨S262144, .i32⟩
  | .hbm, ⟨54, _⟩ => ⟨S262144, .i32⟩
  | .hbm, ⟨55, _⟩ => ⟨S262144x1, .i32⟩
  | .hbm, ⟨56, _⟩ => ⟨S262144x256, .f32⟩
  | .hbm, ⟨57, _⟩ => ⟨S262144x1, .f32⟩
  | .hbm, ⟨58, _⟩ => ⟨S262144x256, .f32⟩
  | .hbm, ⟨59, _⟩ => ⟨S262144x256, .f32⟩
  | .hbm, ⟨60, _⟩ => ⟨S_, .f32⟩
  | .hbm, ⟨61, _⟩ => ⟨S65536x256, .f32⟩
  | .hbm, ⟨62, _⟩ => ⟨S262144x1, .i32⟩
  | .hbm, ⟨63, _⟩ => ⟨S65536x256, .f32⟩
  | .hbm, ⟨64, _⟩ => ⟨S65536x256, .f32⟩
  | .hbm, ⟨65, _⟩ => ⟨S32x2048x256, .f32⟩
  | .hbm, ⟨66, _⟩ => ⟨S32, .i32⟩
  | .hbm, ⟨67, _⟩ => ⟨S32x1, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S32x64, .i32⟩
  | .hbm, ⟨72, _⟩ => ⟨S32x64, .i32⟩
  | .hbm, ⟨73, _⟩ => ⟨S_, .i32⟩
  | .hbm, ⟨74, _⟩ => ⟨S32x64, .i32⟩
  | .hbm, ⟨75, _⟩ => ⟨S32x64, .i32⟩
  | .hbm, ⟨76, _⟩ => ⟨S_, .i32⟩
  | .hbm, ⟨77, _⟩ => ⟨S32x1, .i32⟩
  | .hbm, ⟨78, _⟩ => ⟨S32x1, .i1⟩
  | .hbm, ⟨79, _⟩ => ⟨S_, .i32⟩
  | .hbm, ⟨80, _⟩ => ⟨S32x1, .i32⟩
  | .hbm, ⟨81, _⟩ => ⟨S32x1, .i32⟩
  | .hbm, ⟨82, _⟩ => ⟨S32x1, .i32⟩
  | .hbm, ⟨83, _⟩ => ⟨S_, .i32⟩
  | .hbm, ⟨84, _⟩ => ⟨S32x64, .i32⟩
  | .hbm, ⟨85, _⟩ => ⟨S32x64, .i1⟩
  | .hbm, ⟨86, _⟩ => ⟨S_, .i32⟩
  | .hbm, ⟨87, _⟩ => ⟨S32x64, .i32⟩
  | .hbm, ⟨88, _⟩ => ⟨S32x64, .i32⟩
  | .hbm, ⟨89, _⟩ => ⟨S32x64, .i32⟩
  | .hbm, ⟨90, _⟩ => ⟨S32x64, .i32⟩
  | .hbm, ⟨91, _⟩ => ⟨S32x64x1, .i32⟩
  | .hbm, ⟨92, _⟩ => ⟨S32x64x1, .i32⟩
  | .hbm, ⟨93, _⟩ => ⟨S32x64x2, .i32⟩
  | .hbm, ⟨94, _⟩ => ⟨S32x64x256, .f32⟩
  | .hbm, ⟨95, _⟩ => ⟨S32x64x1, .i1⟩
  | .hbm, ⟨96, _⟩ => ⟨S_, .f32⟩
  | .hbm, ⟨97, _⟩ => ⟨S_, .f32⟩
  | .hbm, ⟨98, _⟩ => ⟨S32x64x256, .i1⟩
  | .hbm, ⟨99, _⟩ => ⟨S32x64x256, .f32⟩
  | .hbm, ⟨100, _⟩ => ⟨S32x64x256, .f32⟩
  | .hbm, ⟨101, _⟩ => ⟨S32, .i32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S256x256, .f32⟩
  | .local _ .vmem, ⟨5, _⟩ => ⟨S2048x256, .f32⟩
  | .local _ .vmem, ⟨6, _⟩ => ⟨S2048x256, .f32⟩
  | _, _ => ⟨S32x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_0 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_4 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_6 : Ref sig .tc := ⟨.hbm, 68, rfl⟩
abbrev main_c_7 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v51 : Ref sig .tc := ⟨.hbm, 75, rfl⟩
abbrev main_c_8 : Ref sig .tc := ⟨.hbm, 76, rfl⟩
abbrev main_v52 : Ref sig .tc := ⟨.hbm, 77, rfl⟩
abbrev main_v53 : Ref sig .tc := ⟨.hbm, 78, rfl⟩
abbrev main_c_9 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_v57 : Ref sig .tc := ⟨.hbm, 84, rfl⟩
abbrev main_v58 : Ref sig .tc := ⟨.hbm, 85, rfl⟩
abbrev main_c_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_12 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_v68 : Ref sig .tc := ⟨.hbm, 100, rfl⟩
abbrev main_v69 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S64_S1x64_1 : S64.BroadcastsInDim S1x64 (![1] : Fin 1 → Fin S1x64.rank)
  bcast_S32_S32x1_0 : S32.BroadcastsInDim S32x1 (![0] : Fin 1 → Fin S32x1.rank)
  bcast_S1x64_S32x64_0_1 : S1x64.BroadcastsInDim S32x64 (![0, 1] : Fin 2 → Fin S32x64.rank)
  bcast_S32x1_S32x64_0_1 : S32x1.BroadcastsInDim S32x64 (![0, 1] : Fin 2 → Fin S32x64.rank)
  bcast_S_S32x64 : S_.BroadcastsInDim S32x64 (![] : Fin 0 → Fin S32x64.rank)
  bcast_S32x64_S32x64x1_0_1 : S32x64.BroadcastsInDim S32x64x1 (![0, 1] : Fin 2 → Fin S32x64x1.rank)
  concatenates_S32x64x1_S32x64x1_S32x64x2_d2 : Shape.Concatenates [S32x64x1, S32x64x1] S32x64x2 2
  shapeCasts_S32x2048x256_S65536x256 : S32x2048x256.ShapeCasts S65536x256
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x256_0_1 : S262144x1.BroadcastsInDim S262144x256 (![0, 1] : Fin 2 → Fin S262144x256.rank)
  bcast_S_S65536x256 : S_.BroadcastsInDim S65536x256 (![] : Fin 0 → Fin S65536x256.rank)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  shapeCasts_S65536x256_S32x2048x256 : S65536x256.ShapeCasts S32x2048x256
  bcast_S_S32x1 : S_.BroadcastsInDim S32x1 (![] : Fin 0 → Fin S32x1.rank)
  bcast_S32x64x1_S32x64x256_0_1_2 : S32x64x1.BroadcastsInDim S32x64x256 (![0, 1, 2] : Fin 3 → Fin S32x64x256.rank)
  bcast_S_S32x64x256 : S_.BroadcastsInDim S32x64x256 (![] : Fin 0 → Fin S32x64x256.rank)
  scatter_S32x2048x256_S32x64x2_S32x64x256_2_01_01_2_wf : ScatterDims.WF S32x2048x256 S32x64x2 S32x64x256 [2] [0, 1] [0, 1] 2
  gather_S65536x256_S262144x1_S262144x256_1_0_n_n_0_1_1256_wf : GatherDims.WF S65536x256 S262144x1 S262144x256 [1] [0] [] [0] [] 1 ![1, 256]
  scatter_S65536x256_S262144x1_S262144x256_1_0_0_1_wf : ScatterDims.WF S65536x256 S262144x1 S262144x256 [1] [0] [0] 1
  dot_S2048x256_S256x256_S2048x256_1_0_0_1_n_n_wf : DotDims.WF S2048x256 S256x256 S2048x256 [1] [0] [0] [1] [] []
  gather_S32x2048x256_S32x64x2_S32x64x256_2_01_n_n_01_2_11256_wf : GatherDims.WF S32x2048x256 S32x64x2 S32x64x256 [2] [0, 1] [] [0, 1] [] 2 ![1, 1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S65536x256.size a
  hwx0_1 : ∀ i : grid0.Coords, EltTy.bits .f32 = 32 ∨ (Rect.block (s := S65536x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S65536x256.size a
  hwx0_3 : ∀ i : grid0.Coords, EltTy.bits .f32 = 32 ∨ (Rect.block (s := S65536x256) S2048x256.size (cc0_transform_3 i) (hinb0_3 i)).WholeWords (EltTy.packing .f32)

variable [Facts₀]

def scatter_S32x2048x256_S32x64x2_S32x64x256_2_01_01_2 : ScatterDims S32x2048x256 S32x64x2 S32x64x256 where
  updateWindowDims := [2]
  insertedWindowDims := [0, 1]
  scatterDimsToOperandDims := [0, 1]
  indexVectorDim := 2
  wf := scatter_S32x2048x256_S32x64x2_S32x64x256_2_01_01_2_wf
def gather_S65536x256_S262144x1_S262144x256_1_0_n_n_0_1_1256 : GatherDims S65536x256 S262144x1 S262144x256 where
  offsetDims := [1]
  collapsedSliceDims := [0]
  operandBatchingDims := []
  startIndicesBatchingDims := []
  startIndexMap := [0]
  indexVectorDim := 1
  sliceSizes := ![1, 256]
  wf := gather_S65536x256_S262144x1_S262144x256_1_0_n_n_0_1_1256_wf
def scatter_S65536x256_S262144x1_S262144x256_1_0_0_1 : ScatterDims S65536x256 S262144x1 S262144x256 where
  updateWindowDims := [1]
  insertedWindowDims := [0]
  scatterDimsToOperandDims := [0]
  indexVectorDim := 1
  wf := scatter_S65536x256_S262144x1_S262144x256_1_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def gather_S32x2048x256_S32x64x2_S32x64x256_2_01_n_n_01_2_11256 : GatherDims S32x2048x256 S32x64x2 S32x64x256 where
  offsetDims := [2]
  collapsedSliceDims := [0, 1]
  operandBatchingDims := []
  startIndicesBatchingDims := []
  startIndexMap := [0, 1]
  indexVectorDim := 2
  sliceSizes := ![1, 1, 256]
  wf := gather_S32x2048x256_S32x64x2_S32x64x256_2_01_n_n_01_2_11256_wf

abbrev win0_0 : Pipeline.Window sig grid0 :=
  Pipeline.Window.ofSpec (Memref.whole main_v29) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S2048x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x64x256 : Shape := ⟨3, ![32, 64, 256]⟩
abbrev S32x2048x256 : Shape := ⟨3, ![32, 2048, 256]⟩
abbrev S262144 : Shape := ⟨1, ![262144]⟩
abbrev S256x256 : Shape := ⟨2, ![256, 256]⟩
abbrev S32 : Shape := ⟨1, ![32]⟩
abbrev S2x262144 : Shape := ⟨2, ![2, 262144]⟩
abbrev S64 : Shape := ⟨1, ![64]⟩
abbrev S1x64 : Shape := ⟨2, ![1, 64]⟩
abbrev S32x1 : Shape := ⟨2, ![32, 1]⟩
abbrev S32x64 : Shape := ⟨2, ![32, 64]⟩
abbrev S_ : Shape := ⟨0, ![]⟩
abbrev S32x64x1 : Shape := ⟨3, ![32, 64, 1]⟩
abbrev S32x64x2 : Shape := ⟨3, ![32, 64, 2]⟩
abbrev S65536x256 : Shape := ⟨2, ![65536, 256]⟩
abbrev S1x262144 : Shape := ⟨2, ![1, 262144]⟩
abbrev S262144x1 : Shape := ⟨2, ![262144, 1]⟩
abbrev S262144x256 : Shape := ⟨2, ![262144, 256]⟩

abbrev nBuf : Space → Nat
  | .hbm => 104
  | .vmem => 0
  | .smem => 0
  | _ => 0

abbrev bufTy : (tb : Table) → Fin (tcTables nBuf tb) → BufTy
  | .hbm, ⟨0, _⟩ => ⟨S32x64x256, .f32⟩
  | .hbm, ⟨1, _⟩ => ⟨S32x2048x256, .f32⟩
  | .hbm, ⟨2, _⟩ => ⟨S262144, .f32⟩
  | .hbm, ⟨3, _⟩ => ⟨S256x256, .f32⟩
  | .hbm, ⟨4, _⟩ => ⟨S32, .i32⟩
  | .hbm, ⟨5, _⟩ => ⟨S2x262144, .i32⟩
  | .hbm, ⟨6, _⟩ => ⟨S32, .i32⟩
  | .hbm, ⟨7, _⟩ => ⟨S64, .i32⟩
  | .hbm, ⟨8, _⟩ => ⟨S1x64, .i32⟩
  | .hbm, ⟨9, _⟩ => ⟨S32x1, .i32⟩
  | .hbm, ⟨10, _⟩ => ⟨S32x64, .i32⟩
  | .hbm, ⟨11, _⟩ => ⟨S32x64, .i32⟩
  | .hbm, ⟨12, _⟩ => ⟨S32x64, .i1⟩
  | .hbm, ⟨13, _⟩ => ⟨S32x1, .i32⟩
  | .hbm, ⟨14, _⟩ => ⟨S1x64, .i32⟩
  | .hbm, ⟨15, _⟩ => ⟨S32x64, .i32⟩
  | .hbm, ⟨16, _⟩ => ⟨S32x64, .i32⟩
  | .hbm, ⟨17, _⟩ => ⟨S32x64, .i32⟩
  | .hbm, ⟨18, _⟩ => ⟨S_, .i32⟩
  | .hbm, ⟨19, _⟩ => ⟨S_, .i32⟩
  | .hbm, ⟨20, _⟩ => ⟨S32x64, .i32⟩
  | .hbm, ⟨21, _⟩ => ⟨S32x64, .i32⟩
  | .hbm, ⟨22, _⟩ => ⟨S32, .i32⟩
  | .hbm, ⟨23, _⟩ => ⟨S32x1, .i32⟩
  | .hbm, ⟨24, _⟩ => ⟨S32x64, .i32⟩
  | .hbm, ⟨25, _⟩ => ⟨S_, .i32⟩
  | .hbm, ⟨26, _⟩ => ⟨S32x64, .i32⟩
  | .hbm, ⟨27, _⟩ => ⟨S32x64, .i1⟩
  | .hbm, ⟨28, _⟩ => ⟨S_, .i32⟩
  | .hbm, ⟨29, _⟩ => ⟨S32x64, .i32⟩
  | .hbm, ⟨30, _⟩ => ⟨S32x64, .i32⟩
  | .hbm, ⟨31, _⟩ => ⟨S32x64, .i32⟩
  | .hbm, ⟨32, _⟩ => ⟨S_, .i32⟩
  | .hbm, ⟨33, _⟩ => ⟨S32x64, .i32⟩
  | .hbm, ⟨34, _⟩ => ⟨S32x64, .i1⟩
  | .hbm, ⟨35, _⟩ => ⟨S_, .i32⟩
  | .hbm, ⟨36, _⟩ => ⟨S32x64, .i32⟩
  | .hbm, ⟨37, _⟩ => ⟨S32x64, .i32⟩
  | .hbm, ⟨38, _⟩ => ⟨S32x64, .i32⟩
  | .hbm, ⟨39, _⟩ => ⟨S32x64x1, .i32⟩
  | .hbm, ⟨40, _⟩ => ⟨S32x64x1, .i32⟩
  | .hbm, ⟨41, _⟩ => ⟨S32x64x2, .i32⟩
  | .hbm, ⟨42, _⟩ => ⟨S32x2048x256, .f32⟩
  | .hbm, ⟨43, _⟩ => ⟨S65536x256, .f32⟩
  | .hbm, ⟨44, _⟩ => ⟨S1x262144, .i32⟩
  | .hbm, ⟨45, _⟩ => ⟨S262144, .i32⟩
  | .hbm, ⟨46, _⟩ => ⟨S1x262144, .i32⟩
  | .hbm, ⟨47, _⟩ => ⟨S262144, .i32⟩
  | .hbm, ⟨48, _⟩ => ⟨S_, .i32⟩
  | .hbm, ⟨49, _⟩ => ⟨S262144, .i32⟩
  | .hbm, ⟨50, _⟩ => ⟨S262144, .i1⟩
  | .hbm, ⟨51, _⟩ => ⟨S_, .i32⟩
  | .hbm, ⟨52, _⟩ => ⟨S262144, .i32⟩
  | .hbm, ⟨53, _⟩ => ⟨S262144, .i32⟩
  | .hbm, ⟨54, _⟩ => ⟨S262144, .i32⟩
  | .hbm, ⟨55, _⟩ => ⟨S262144x1, .i32⟩
  | .hbm, ⟨56, _⟩ => ⟨S262144x256, .f32⟩
  | .hbm, ⟨57, _⟩ => ⟨S262144x1, .f32⟩
  | .hbm, ⟨58, _⟩ => ⟨S262144x256, .f32⟩
  | .hbm, ⟨59, _⟩ => ⟨S262144x256, .f32⟩
  | .hbm, ⟨60, _⟩ => ⟨S_, .f32⟩
  | .hbm, ⟨61, _⟩ => ⟨S65536x256, .f32⟩
  | .hbm, ⟨62, _⟩ => ⟨S262144x1, .i32⟩
  | .hbm, ⟨63, _⟩ => ⟨S65536x256, .f32⟩
  | .hbm, ⟨64, _⟩ => ⟨S65536x256, .f32⟩
  | .hbm, ⟨65, _⟩ => ⟨S65536x256, .f32⟩
  | .hbm, ⟨66, _⟩ => ⟨S65536x256, .f32⟩
  | .hbm, ⟨67, _⟩ => ⟨S32x2048x256, .f32⟩
  | .hbm, ⟨68, _⟩ => ⟨S32, .i32⟩
  | .hbm, ⟨69, _⟩ => ⟨S32x1, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S32x64, .i32⟩
  | .hbm, ⟨74, _⟩ => ⟨S32x64, .i32⟩
  | .hbm, ⟨75, _⟩ => ⟨S_, .i32⟩
  | .hbm, ⟨76, _⟩ => ⟨S32x64, .i32⟩
  | .hbm, ⟨77, _⟩ => ⟨S32x64, .i32⟩
  | .hbm, ⟨78, _⟩ => ⟨S_, .i32⟩
  | .hbm, ⟨79, _⟩ => ⟨S32x1, .i32⟩
  | .hbm, ⟨80, _⟩ => ⟨S32x1, .i1⟩
  | .hbm, ⟨81, _⟩ => ⟨S_, .i32⟩
  | .hbm, ⟨82, _⟩ => ⟨S32x1, .i32⟩
  | .hbm, ⟨83, _⟩ => ⟨S32x1, .i32⟩
  | .hbm, ⟨84, _⟩ => ⟨S32x1, .i32⟩
  | .hbm, ⟨85, _⟩ => ⟨S_, .i32⟩
  | .hbm, ⟨86, _⟩ => ⟨S32x64, .i32⟩
  | .hbm, ⟨87, _⟩ => ⟨S32x64, .i1⟩
  | .hbm, ⟨88, _⟩ => ⟨S_, .i32⟩
  | .hbm, ⟨89, _⟩ => ⟨S32x64, .i32⟩
  | .hbm, ⟨90, _⟩ => ⟨S32x64, .i32⟩
  | .hbm, ⟨91, _⟩ => ⟨S32x64, .i32⟩
  | .hbm, ⟨92, _⟩ => ⟨S32x64, .i32⟩
  | .hbm, ⟨93, _⟩ => ⟨S32x64x1, .i32⟩
  | .hbm, ⟨94, _⟩ => ⟨S32x64x1, .i32⟩
  | .hbm, ⟨95, _⟩ => ⟨S32x64x2, .i32⟩
  | .hbm, ⟨96, _⟩ => ⟨S32x64x256, .f32⟩
  | .hbm, ⟨97, _⟩ => ⟨S32x64x1, .i1⟩
  | .hbm, ⟨98, _⟩ => ⟨S_, .f32⟩
  | .hbm, ⟨99, _⟩ => ⟨S_, .f32⟩
  | .hbm, ⟨100, _⟩ => ⟨S32x64x256, .i1⟩
  | .hbm, ⟨101, _⟩ => ⟨S32x64x256, .f32⟩
  | .hbm, ⟨102, _⟩ => ⟨S32x64x256, .f32⟩
  | .hbm, ⟨103, _⟩ => ⟨S32, .i32⟩
  | _, _ => ⟨S32x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_0 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_4 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_6 : Ref sig .tc := ⟨.hbm, 70, rfl⟩
abbrev main_c_7 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_v53 : Ref sig .tc := ⟨.hbm, 77, rfl⟩
abbrev main_c_8 : Ref sig .tc := ⟨.hbm, 78, rfl⟩
abbrev main_v54 : Ref sig .tc := ⟨.hbm, 79, rfl⟩
abbrev main_v55 : Ref sig .tc := ⟨.hbm, 80, rfl⟩
abbrev main_c_9 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_10 : Ref sig .tc := ⟨.hbm, 85, rfl⟩
abbrev main_v59 : Ref sig .tc := ⟨.hbm, 86, rfl⟩
abbrev main_v60 : Ref sig .tc := ⟨.hbm, 87, rfl⟩
abbrev main_c_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_12 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_v70 : Ref sig .tc := ⟨.hbm, 102, rfl⟩
abbrev main_v71 : Ref sig .tc := ⟨.hbm, 103, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S32_S32x1_0 : S32.BroadcastsInDim S32x1 (![0] : Fin 1 → Fin S32x1.rank)
  bcast_S1x64_S32x64_0_1 : S1x64.BroadcastsInDim S32x64 (![0, 1] : Fin 2 → Fin S32x64.rank)
  bcast_S32x1_S32x64_0_1 : S32x1.BroadcastsInDim S32x64 (![0, 1] : Fin 2 → Fin S32x64.rank)
  bcast_S_S32x64 : S_.BroadcastsInDim S32x64 (![] : Fin 0 → Fin S32x64.rank)
  bcast_S32x64_S32x64x1_0_1 : S32x64.BroadcastsInDim S32x64x1 (![0, 1] : Fin 2 → Fin S32x64x1.rank)
  concatenates_S32x64x1_S32x64x1_S32x64x2_d2 : Shape.Concatenates [S32x64x1, S32x64x1] S32x64x2 2
  shapeCasts_S32x2048x256_S65536x256 : S32x2048x256.ShapeCasts S65536x256
  slices_S2x262144_S1x262144_0_0 : S2x262144.Slices ![0, 0] S1x262144
  shapeCasts_S1x262144_S262144 : S1x262144.ShapeCasts S262144
  slices_S2x262144_S1x262144_1_0 : S2x262144.Slices ![1, 0] S1x262144
  bcast_S_S262144 : S_.BroadcastsInDim S262144 (![] : Fin 0 → Fin S262144.rank)
  bcast_S262144_S262144x1_0 : S262144.BroadcastsInDim S262144x1 (![0] : Fin 1 → Fin S262144x1.rank)
  bcast_S262144x1_S262144x256_0_1 : S262144x1.BroadcastsInDim S262144x256 (![0, 1] : Fin 2 → Fin S262144x256.rank)
  bcast_S_S65536x256 : S_.BroadcastsInDim S65536x256 (![] : Fin 0 → Fin S65536x256.rank)
  shapeCasts_S65536x256_S32x2048x256 : S65536x256.ShapeCasts S32x2048x256
  bcast_S_S32x1 : S_.BroadcastsInDim S32x1 (![] : Fin 0 → Fin S32x1.rank)
  bcast_S32x64x1_S32x64x256_0_1_2 : S32x64x1.BroadcastsInDim S32x64x256 (![0, 1, 2] : Fin 3 → Fin S32x64x256.rank)
  bcast_S_S32x64x256 : S_.BroadcastsInDim S32x64x256 (![] : Fin 0 → Fin S32x64x256.rank)
  scatter_S32x2048x256_S32x64x2_S32x64x256_2_01_01_2_wf : ScatterDims.WF S32x2048x256 S32x64x2 S32x64x256 [2] [0, 1] [0, 1] 2
  gather_S65536x256_S262144x1_S262144x256_1_0_n_n_0_1_1256_wf : GatherDims.WF S65536x256 S262144x1 S262144x256 [1] [0] [] [0] [] 1 ![1, 256]
  scatter_S65536x256_S262144x1_S262144x256_1_0_0_1_wf : ScatterDims.WF S65536x256 S262144x1 S262144x256 [1] [0] [0] 1
  dot_S65536x256_S256x256_S65536x256_1_0_0_1_n_n_wf : DotDims.WF S65536x256 S256x256 S65536x256 [1] [0] [0] [1] [] []
  gather_S32x2048x256_S32x64x2_S32x64x256_2_01_n_n_01_2_11256_wf : GatherDims.WF S32x2048x256 S32x64x2 S32x64x256 [2] [0, 1] [] [0, 1] [] 2 ![1, 1, 256]

variable [Facts₀]

def scatter_S32x2048x256_S32x64x2_S32x64x256_2_01_01_2 : ScatterDims S32x2048x256 S32x64x2 S32x64x256 where
  updateWindowDims := [2]
  insertedWindowDims := [0, 1]
  scatterDimsToOperandDims := [0, 1]
  indexVectorDim := 2
  wf := scatter_S32x2048x256_S32x64x2_S32x64x256_2_01_01_2_wf
def gather_S65536x256_S262144x1_S262144x256_1_0_n_n_0_1_1256 : GatherDims S65536x256 S262144x1 S262144x256 where
  offsetDims := [1]
  collapsedSliceDims := [0]
  operandBatchingDims := []
  startIndicesBatchingDims := []
  startIndexMap := [0]
  indexVectorDim := 1
  sliceSizes := ![1, 256]
  wf := gather_S65536x256_S262144x1_S262144x256_1_0_n_n_0_1_1256_wf
def scatter_S65536x256_S262144x1_S262144x256_1_0_0_1 : ScatterDims S65536x256 S262144x1 S262144x256 where
  updateWindowDims := [1]
  insertedWindowDims := [0]
  scatterDimsToOperandDims := [0]
  indexVectorDim := 1
  wf := scatter_S65536x256_S262144x1_S262144x256_1_0_0_1_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def gather_S32x2048x256_S32x64x2_S32x64x256_2_01_n_n_01_2_11256 : GatherDims S32x2048x256 S32x64x2 S32x64x256 where
  offsetDims := [2]
  collapsedSliceDims := [0, 1]
  operandBatchingDims := []
  startIndicesBatchingDims := []
  startIndexMap := [0, 1]
  indexVectorDim := 2
  sliceSizes := ![1, 1, 256]
  wf := gather_S32x2048x256_S32x64x2_S32x64x256_2_01_n_n_01_2_11256_wf

class Facts : Prop extends Facts₀ where

variable [Facts]
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.DenseStep.lean ====
/-
  One dense step of the graph network, as a function of whole arrays over the extended reals.

  From node features `flat` and aggregated messages `agg` (both `M × 256`) and a weight matrix `W` (`256 × 256`), entry
  `(r, c)` of the result is

      tanh ( Σ_{k < 256} (flat (r, k) + agg (r, k)) · W (k, c) ).

  Two programs compute it. On the host it is the hyperbolic tangent of a `dot_general` (columns of the left operand contracted
  with rows of the right one) of the elementwise sum `flat + agg` with `W`. In a kernel body working on one block of rows it is
  the hyperbolic tangent of a matrix product into the zero accumulator of the same sum. Over the extended reals both products
  are the finite sum above (the accumulator's zero adds nothing), and both tangents are one function, so each program's value is
  `dense flat agg W`. Nothing here needs the entries to be finite: the two sides are the same sum of the same products, term by
  term, and no law of the extended reals beyond that is used.

  The row count `M` is a parameter: the same function read at `M = 2048` is what a kernel body leaves in one block, and read at
  the array's full row count it is what the host computes; a block of rows of the second is the first of the blocks of rows
  (a row of the result depends on that row of `flat` and `agg` only).
-/
import Idealize.ShloMosaic.PureOps.Ideal
import Idealize.ShloMosaic.PureOps.Ideal.Laws
import Idealize.ShloMosaic.Lib.ValueIdx
import Idealize.ShloMosaic.Lib.Pipeline.Value
import proofs.«166277_j31078383354018_1_alg».proof.Proof.LibPlainDot

noncomputable section

namespace Cert.DenseStep

open Idealize.ShloMosaic Idealize.ShloMosaic.ValueIdx

variable {M : Nat}

/-- Entry `(r, c)`: the hyperbolic tangent of row `r` of `flat + agg` against column `c` of `W`. -/
def dense (flat agg : FVec Ideal ⟨2, ![M, 256]⟩ .f32) (W : FVec Ideal ⟨2, ![256, 256]⟩ .f32) : FVec Ideal ⟨2, ![M, 256]⟩ .f32 :=
  fun i => Ideal.tanh (∑ k : Fin 256,
    (flat (ix2 ⟨(i 0).val, idx2_lt0 i⟩ k) + agg (ix2 ⟨(i 0).val, idx2_lt0 i⟩ k)) * W (ix2 k ⟨(i 1).val, idx2_lt1 i⟩))

/-- At an index given by its coordinates. -/
theorem dense_ix2 (flat agg : FVec Ideal ⟨2, ![M, 256]⟩ .f32) (W : FVec Ideal ⟨2, ![256, 256]⟩ .f32) (r : Fin M) (c : Fin 256) :
    dense flat agg W (ix2 r c) = Ideal.tanh (∑ k : Fin 256, (flat (ix2 r k) + agg (ix2 r k)) * W (ix2 k c)) := rfl

/-- The host's form: `tanh` of the `dot_general` of the elementwise sum with the weights. -/
theorem host_eq (a b : FVec Ideal ⟨2, ![M, 256]⟩ .f32) (w : FVec Ideal ⟨2, ![256, 256]⟩ .f32) :
    Host.tanh (Host.dotGeneral (DotDims.plain M 256 256) none (addf a b) w) = dense a b w := by
  funext i
  show FloatOps.hostUnary .tanh (Host.dotGeneral (DotDims.plain M 256 256) none (addf a b) w i) = _
  simp only [Host.dotGeneral]
  rw [Ideal.hostUnary_tanh_def, PlainDot.dotGeneral_apply]
  rfl

/-- A kernel body's form on a block of `M` rows: `tanh` of the matrix product, into the zero accumulator, of the sum of the two
    loaded blocks (each passed through a reshape to its own shape, which changes nothing) with the loaded weights. -/
theorem kernel_eq (x0 x1 : FVec Ideal ⟨2, ![M, 256]⟩ .f32) (x2 : FVec Ideal ⟨2, ![256, 256]⟩ .f32)
    (h : (⟨2, ![M, 256]⟩ : Shape).ShapeCasts ⟨2, ![M, 256]⟩) :
    tanh (matmul (DotDims.plain M 256 256) none (addf (shapeCast ⟨2, ![M, 256]⟩ x0 h) (shapeCast ⟨2, ![M, 256]⟩ x1 h)) x2
        (constant ⟨2, ![M, 256]⟩ .f32 0x00000000#32)) = dense x0 x1 x2 := by
  rw [shapeCast_self, shapeCast_self]
  funext i
  show FloatOps.tanh (FloatOps.matmul (DotDims.plain M 256 256) none (addf x0 x1) x2 (constant ⟨2, ![M, 256]⟩ .f32 0x00000000#32) i) = _
  rw [Ideal.tanh_def, PlainDot.matmul_apply]
  rfl

/-- ROWS ARE INDEPENDENT. Let `b0`, `b1` be the blocks of `Mb` rows of `flat`, `agg` starting at row `o` (full width), and `b2` be
    `W`. Then the dense step of the blocks, at `j`, is the dense step of the whole arrays at the index `i` that `j` names inside the
    array (row `o + j₀`, the same column): entry `(r, c)` reads row `r` of `flat` and `agg` and column `c` of `W`, nothing else. -/
theorem dense_rows {Mb : Nat} (flat agg : FVec Ideal ⟨2, ![M, 256]⟩ .f32) (W : FVec Ideal ⟨2, ![256, 256]⟩ .f32)
    (b0 b1 : FVec Ideal ⟨2, ![Mb, 256]⟩ .f32) (b2 : FVec Ideal ⟨2, ![256, 256]⟩ .f32) (o : Nat) (ho : o + Mb ≤ M)
    (h0 : ∀ (r : Fin Mb) (k : Fin 256), b0 (ix2 r k) = flat (ix2 ⟨o + r.val, Nat.lt_of_lt_of_le (Nat.add_lt_add_left r.isLt o) ho⟩ k))
    (h1 : ∀ (r : Fin Mb) (k : Fin 256), b1 (ix2 r k) = agg (ix2 ⟨o + r.val, Nat.lt_of_lt_of_le (Nat.add_lt_add_left r.isLt o) ho⟩ k))
    (h2 : ∀ (k c : Fin 256), b2 (ix2 k c) = W (ix2 k c))
    (j : (⟨2, ![Mb, 256]⟩ : Shape).Idx) (i : (⟨2, ![M, 256]⟩ : Shape).Idx)
    (hi0 : (i 0).val = o + (j 0).val) (hi1 : (i 1).val = (j 1).val) :
    dense b0 b1 b2 j = dense flat agg W i := by
  have e0 : ∀ k : Fin 256, b0 (ix2 ⟨(j 0).val, idx2_lt0 j⟩ k) = flat (ix2 ⟨(i 0).val, idx2_lt0 i⟩ k) := fun k =>
    (h0 ⟨(j 0).val, idx2_lt0 j⟩ k).trans (congrArg (fun r : Fin M => flat (ix2 r k)) (Fin.ext hi0.symm))
  have e1 : ∀ k : Fin 256, b1 (ix2 ⟨(j 0).val, idx2_lt0 j⟩ k) = agg (ix2 ⟨(i 0).val, idx2_lt0 i⟩ k) := fun k =>
    (h1 ⟨(j 0).val, idx2_lt0 j⟩ k).trans (congrArg (fun r : Fin M => agg (ix2 r k)) (Fin.ext hi0.symm))
  have e2 : ∀ k : Fin 256, b2 (ix2 k ⟨(j 1).val, idx2_lt1 j⟩) = W (ix2 k ⟨(i 1).val, idx2_lt1 i⟩) := fun k =>
    (h2 k ⟨(j 1).val, idx2_lt1 j⟩).trans (congrArg (fun c : Fin 256 => W (ix2 k c)) (Fin.ext hi1.symm))
  show Ideal.tanh (∑ k : Fin 256, (b0 (ix2 ⟨(j 0).val, idx2_lt0 j⟩ k) + b1 (ix2 ⟨(j 0).val, idx2_lt0 j⟩ k)) * b2 (ix2 k ⟨(j 1).val, idx2_lt1 j⟩))
     = Ideal.tanh (∑ k : Fin 256, (flat (ix2 ⟨(i 0).val, idx2_lt0 i⟩ k) + agg (ix2 ⟨(i 0).val, idx2_lt0 i⟩ k)) * W (ix2 k ⟨(i 1).val, idx2_lt1 i⟩))
  refine congrArg Ideal.tanh (Finset.sum_congr rfl fun k _ => ?_)
  rw [e0 k, e1 k, e2 k]

end Cert.DenseStep

end
-- ==== Proof.ReferenceDense.lean ====
/-
  The reference's result, read as: a shared host chain applied to the dense step.

  The reference computes, on the host, node features `flat` (the node array with the new memories scattered in, flattened to
  65536 × 256) and aggregated messages `agg` (a gather along the edges' sources, scaled by the edge weights, summed into the edges'
  targets), then `tanh ((flat + agg) · W)`, and from that array the rows at the newly inserted slots, masked. Here its stage after
  the hyperbolic tangent is shown to be the dense step `DenseStep.dense` of its stages `flat` and `agg` and of `W`; and what it does
  with that array afterwards — reshape to 32 × 2048 × 256, gather the rows at the clipped slots, keep them where the slot is a
  real one and put zero elsewhere — is named as ONE function `slots` of the array (and of the two integer arguments that fix the
  slots), so that two programs applying that chain to equal arrays agree without the chain ever being opened.
-/
import proofs.«166277_j31078383354018_1_alg».proof.Proof.Gen.ReferenceIdeal.Read
import proofs.«166277_j31078383354018_1_alg».proof.Proof.DenseStep

noncomputable section

namespace Cert.ReferenceIdeal.DenseValue

open Cert.ReferenceIdeal Cert.ReferenceIdeal.Gen Cert.ReferenceIdeal.Read
open Idealize.ShloMosaic Idealize.ShloMosaic.ValueIdx

/-- The printed dimension numbers of the reference's product are the plain ones: 65536 × 256 by 256 × 256. -/
theorem dot_plain : dot_S65536x256_S256x256_S65536x256_1_0_0_1_n_n = DotDims.plain 65536 256 256 := rfl

/-- What the reference does with the array `X` the dense step leaves: the rows of `X` (seen as 32 × 2048 × 256) at the clipped new
    slots `T[b] + i`, kept where `i < taus[b]`, zero elsewhere. `x4` is `taus`, `x6` is `T`. -/
def slots (X : (⟨S65536x256, .f32⟩ : BufTy).Contents (Elt Ideal)) (x4 x6 : (⟨S32, .i32⟩ : BufTy).Contents (Elt Ideal)) :
    (⟨S32x64x256, .f32⟩ : BufTy).Contents (Elt Ideal) :=
  select (val_main_call2_v1 (F := Ideal) x4)
    (Host.gather gather_S32x2048x256_S32x64x2_S32x64x256_2_01_n_n_01_2_11256
      (shapeCast _ X shapeCasts_S65536x256_S32x2048x256) (val_main_v67 (F := Ideal) x6))
    (val_main_call2_v2 (F := Ideal))

variable (x0 : (⟨S32x64x256, .f32⟩ : BufTy).Contents (Elt Ideal)) (x1 : (⟨S32x2048x256, .f32⟩ : BufTy).Contents (Elt Ideal))
  (x2 : (⟨S262144, .f32⟩ : BufTy).Contents (Elt Ideal)) (x3 : (⟨S256x256, .f32⟩ : BufTy).Contents (Elt Ideal))
  (x4 : (⟨S32, .i32⟩ : BufTy).Contents (Elt Ideal)) (x5 : (⟨S2x262144, .i32⟩ : BufTy).Contents (Elt Ideal))
  (x6 : (⟨S32, .i32⟩ : BufTy).Contents (Elt Ideal))

/-- The reference's stage after the hyperbolic tangent is the dense step of its `flat` and `agg` stages and of `W`. -/
theorem dense_stage :
    val_main_v49 (F := Ideal) x0 x1 x2 x3 x4 x5 x6
      = DenseStep.dense (M := 65536) (val_main_v29 (F := Ideal) x0 x1 x4 x6) (val_main_v46 (F := Ideal) x0 x1 x2 x4 x5 x6) x3 := by
  unfold val_main_v49 val_main_v48 val_main_v47
  rw [dot_plain]
  exact DenseStep.host_eq (M := 65536) _ _ x3

/-- The reference's first result is the shared chain applied to its dense stage. -/
theorem result_eq :
    val_main_v70 (F := Ideal) x0 x1 x2 x3 x4 x5 x6 = slots (val_main_v49 (F := Ideal) x0 x1 x2 x3 x4 x5 x6) x4 x6 := rfl

end Cert.ReferenceIdeal.DenseValue

end
-- ==== Proof.KernelDense.lean ====
/-
  The array the kernel region leaves, as one function of the arrays it finds.

  The region walks 32 grid points. At point `t` it is handed rows `2048·t … 2048·t + 2047` (all 256 columns) of the node features
  and of the aggregated messages, and the whole 256 × 256 weight matrix; its body adds the two blocks, multiplies the sum by the
  weights into a zero accumulator, takes the hyperbolic tangent, and stores the 2048 × 256 result, which is written back as rows
  `2048·t … 2048·t + 2047` of the output array. So what point `t` writes back is the block of rows of the dense step of the WHOLE
  arrays (rows are independent: `DenseStep.dense_rows`), the 32 blocks of rows tile the 65536 rows, and the output array ends
  holding the dense step of the three arrays as the region found them.
-/
import proofs.«166277_j31078383354018_1_alg».proof.Proof.Gen.KernelIdeal.Frame
import proofs.«166277_j31078383354018_1_alg».proof.Proof.DenseStep
import Idealize.ShloMosaic.Lib.Pipeline.Value
import Idealize.ShloMosaic.Lib.ValueIdx

set_option maxRecDepth 16384

noncomputable section

namespace Cert.KernelIdeal.DenseValue

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The body's arithmetic, of its three loaded blocks, is the dense step of the blocks. -/
theorem payload_eq (x0 x1 : Vec Ideal S2048x256 .f32) (x2 : Vec Ideal S256x256 .f32) :
    k0_pay1 x0 x1 x2 = DenseStep.dense (M := 2048) x0 x1 x2 :=
  DenseStep.kernel_eq (M := 2048) x0 x1 x2 shapeCasts_S2048x256_S2048x256

/-- The index maps over the grid: at point `t` the two row-blocked inputs and the output sit at block row `t`, block column 0,
    and the weights at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 32 := by
  have h := t.isLt
  have hN : cfg0.N = 32 := N_0
  omega

/-- Row `r`, column `k` of the node-feature block at point `t` is row `2048·t + r`, column `k` of the array. -/
theorem flat_block (c : Dev nD) (t : Fin cfg0.N) (r : Fin 2048) (k : Fin 256) (h : t.val * 2048 + r.val < 65536) :
    (iblk m c 0 t : Vec Ideal S2048x256 .f32) (ix2 r k)
      = (V m c main_v29 : S65536x256.Idx → Elt Ideal .f32) (ix2 ⟨t.val * 2048 + r.val, h⟩ k) := by
  obtain ⟨e00, e01, -⟩ := block_indices t
  unfold iblk
  have hA : V m c (Pipeline.arrRef spec0 0) = V m c main_v29 := rfl
  rw [hA]
  generalize V m c main_v29 = A
  rw [View.read_apply]
  rw [cast_eq]
  refine congrArg A (funext fun a => Fin.ext ?_)
  match a with
  | ⟨0, _⟩ => show win0_0.index t (0 : Fin 2) * 2048 + 1 * r.val = t.val * 2048 + r.val; omega
  | ⟨1, _⟩ => show win0_0.index t (1 : Fin 2) * 256 + 1 * k.val = k.val; omega

/-- The same of the aggregated-message block. -/
theorem agg_block (c : Dev nD) (t : Fin cfg0.N) (r : Fin 2048) (k : Fin 256) (h : t.val * 2048 + r.val < 65536) :
    (iblk m c 1 t : Vec Ideal S2048x256 .f32) (ix2 r k)
      = (V m c main_v46 : S65536x256.Idx → Elt Ideal .f32) (ix2 ⟨t.val * 2048 + r.val, h⟩ k) := by
  obtain ⟨-, -, e10, e11, -⟩ := block_indices t
  unfold iblk
  have hA : V m c (Pipeline.arrRef spec0 1) = V m c main_v46 := rfl
  rw [hA]
  generalize V m c main_v46 = A
  rw [View.read_apply]
  rw [cast_eq]
  refine congrArg A (funext fun a => Fin.ext ?_)
  match a with
  | ⟨0, _⟩ => show win0_1.index t (0 : Fin 2) * 2048 + 1 * r.val = t.val * 2048 + r.val; omega
  | ⟨1, _⟩ => show win0_1.index t (1 : Fin 2) * 256 + 1 * k.val = k.val; omega

/-- The weight block at every point is the whole weight matrix. -/
theorem weight_block (c : Dev nD) (t : Fin cfg0.N) (k q : Fin 256) :
    (iblk m c 2 t : Vec Ideal S256x256 .f32) (ix2 k q) = (V m c main_arg3 : S256x256.Idx → Elt Ideal .f32) (ix2 k q) := by
  obtain ⟨-, -, -, -, e20, e21, -⟩ := block_indices t
  unfold iblk
  have hA : V m c (Pipeline.arrRef spec0 2) = V m c main_arg3 := rfl
  rw [hA]
  generalize V m c main_arg3 = A
  rw [View.read_apply]
  rw [cast_eq]
  refine congrArg A (funext fun a => Fin.ext ?_)
  match a with
  | ⟨0, _⟩ => show win0_2.index t (0 : Fin 2) * 256 + 1 * k.val = k.val; omega
  | ⟨1, _⟩ => show win0_2.index t (1 : Fin 2) * 256 + 1 * q.val = q.val; omega

/-- WHAT POINT `t` WRITES BACK is block `t` of the dense step of the arrays as the region finds them. -/
theorem flushed_eq (c : Dev nD) (t : Fin cfg0.N) :
    (dats m 0 c).flushed 3 t = ((cfg0.win 3).blk t).view.read (Elt Ideal)
      (DenseStep.dense (M := 65536) (V m c main_v29) (V m c main_v46) (V m c main_arg3)) := by
  show (cfg0.win 3).cut (grid0.coords t) ((dats m 0 c).after 3 t) = _
  rw [after0_3]
  unfold out0_3
  rw [View.canon_unit_zero zero_offsets]
  simp only [View.ld_unit_zero (S := S2048x256) zero_offsets, View.ld_unit_zero (S := S256x256) zero_offsets]
  rw [payload_eq (iblk m c 0 t) (iblk m c 1 t) (iblk m c 2 t)]
  obtain ⟨-, -, -, -, -, -, e30, e31⟩ := block_indices t
  have ht := point_lt t
  funext j
  generalize hG : DenseStep.dense (M := 65536) (V m c main_v29) (V m c main_v46) (V m c main_arg3) = G
  rw [View.read_apply]
  rw [cast_eq]
  rw [← hG]
  refine DenseStep.dense_rows (M := 65536) (Mb := 2048) (V m c main_v29) (V m c main_v46) (V m c main_arg3)
    (iblk m c 0 t) (iblk m c 1 t) (iblk m c 2 t) (t.val * 2048) (by omega)
    (fun r k => flat_block m c t r k _) (fun r k => agg_block m c t r k _) (fun k q => weight_block m c t k q)
    j (((cfg0.win 3).blk t).view.emb j) ?_ ?_
  · show win0_3.index t (0 : Fin 2) * 2048 + 1 * (j 0).val = t.val * 2048 + (j 0).val; omega
  · show win0_3.index t (1 : Fin 2) * 256 + 1 * (j 1).val = (j 1).val; omega

/-- An index of the output array is in point `t`'s block iff each coordinate is in the block's range on its axis. -/
theorem mem_block (t : Fin cfg0.N) (i : S65536x256.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v47).slice (win0_3.rect t)).set ↔ _
  rw [View.set_slice_whole, Rect.mem_set_unit]
  exact Iff.rfl

/-- The blocks of rows tile the array: row `r` is in the block of point `r / 2048`. -/
theorem covered (i : S65536x256.Idx) :
    ∃ t : Fin cfg0.N, (cfg0.win 3).flush t = true ∧ i ∈ ((cfg0.win 3).blk t).view.set := by
  have hi0 : (i 0).val < 65536 := (i 0).isLt
  have hi1 : (i 1).val < 256 := (i 1).isLt
  have hN : cfg0.N = 32 := N_0
  let t : Fin cfg0.N := ⟨(i 0).val / 2048, by omega⟩
  obtain ⟨-, -, -, -, -, -, e30, e31⟩ := block_indices t
  have e30' : win0_3.index t (0 : Fin 2) = (i 0).val / 2048 := e30
  refine ⟨t, flush0_3 t, ?_⟩
  rw [mem_block]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 256 ≤ (i 1).val ∧ (i 1).val < win0_3.index t (1 : Fin 2) * 256 + 256; omega

/-- THE OUTPUT ARRAY after the region: the dense step of the node features, the aggregated messages and the weights as the
    region found them. -/
theorem final (c : Dev nD) :
    (dats m 0 c).arrAt 3 cfg0.N = DenseStep.dense (M := 65536) (V m c main_v29) (V m c main_v46) (V m c main_arg3) :=
  (dats m 0 c).arrAt_eq_of_cover 3 _ (fun t _ => flushed_eq m c t) covered

end Cert.KernelIdeal.DenseValue

end
-- ==== Proof.KernelPrefixSlots.lean ====
/-
  What the kernel's program has computed on the host when its region is entered: the integer side.

  Before the region the kernel's program runs, on the host, the same operations the reference runs. Read back as pure terms of the
  argument arrays, the two buffers the lines AFTER the region will need again are the reference's own stages of the same
  arguments: the mask of real slots (`i < taus[b]`) and the slot numbers `T[b] + i`.
-/
import proofs.«166277_j31078383354018_1_alg».proof.Proof.Gen.KernelIdeal.Frame
import proofs.«166277_j31078383354018_1_alg».proof.Proof.Gen.ReferenceIdeal.Read
import Idealize.ShloMosaic.Lib.StableHlo.Run

noncomputable section

namespace Cert.KernelIdeal.PrefixSlots

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 4000000 in
/-- The mask of real slots, `i < taus[b]`, is the reference's stage of `taus`. -/
theorem mask_eq (c : Dev nD) :
    V m c main_v5 = Cert.ReferenceIdeal.Read.val_main_v5 (F := Ideal) (m ((c : Thread nD τ).loc main_arg4)) := by
  dsimp only [V, V0]
  simp only [hostOps0, hostOps0_1, hostOps0_2, List.flatten_cons, List.flatten_nil, List.append_nil, List.cons_append, List.nil_append]
  after_results_simp <;> rfl

set_option maxRecDepth 8192 in
set_option maxHeartbeats 4000000 in
/-- The slot numbers `T[b] + i` are the reference's stage of `T`. -/
theorem slot_eq (c : Dev nD) :
    V m c main_v10 = Cert.ReferenceIdeal.Read.val_main_v10 (F := Ideal) (m ((c : Thread nD τ).loc main_arg6)) := by
  dsimp only [V, V0]
  simp only [hostOps0, hostOps0_1, hostOps0_2, List.flatten_cons, List.flatten_nil, List.append_nil, List.cons_append, List.nil_append]
  after_results_simp <;> rfl

end Cert.KernelIdeal.PrefixSlots

end
-- ==== Proof.KernelPrefixNodes.lean ====
/-
  What the kernel's program has computed on the host when its region is entered: the node features.

  The node array with the new memories scattered in at the real slots (`nodes[b, T[b] + i] = x[b, i]` for `i < taus[b]`, the padded
  slots sent out of range and dropped) — the second result of both programs — and the same array flattened to 65536 × 256, the
  region's first operand, are the reference's own stages of the same arguments.
-/
import proofs.«166277_j31078383354018_1_alg».proof.Proof.Gen.KernelIdeal.Frame
import proofs.«166277_j31078383354018_1_alg».proof.Proof.Gen.ReferenceIdeal.Read
import Idealize.ShloMosaic.Lib.StableHlo.Run

noncomputable section

namespace Cert.KernelIdeal.PrefixNodes

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 4000000 in
/-- The node array after the insert is the reference's stage. -/
theorem nodes_eq (c : Dev nD) :
    V m c main_v28 = Cert.ReferenceIdeal.Read.val_main_v28 (F := Ideal) (m ((c : Thread nD τ).loc main_arg0)) (m ((c : Thread nD τ).loc main_arg1)) (m ((c : Thread nD τ).loc main_arg4)) (m ((c : Thread nD τ).loc main_arg6)) := by
  dsimp only [V, V0]
  simp only [hostOps0, hostOps0_1, hostOps0_2, List.flatten_cons, List.flatten_nil, List.append_nil, List.cons_append, List.nil_append]
  after_results_simp <;> rfl

set_option maxRecDepth 8192 in
set_option maxHeartbeats 4000000 in
/-- The flattened node features, the region's first operand, are the reference's stage. -/
theorem flat_eq (c : Dev nD) :
    V m c main_v29 = Cert.ReferenceIdeal.Read.val_main_v29 (F := Ideal) (m ((c : Thread nD τ).loc main_arg0)) (m ((c : Thread nD τ).loc main_arg1)) (m ((c : Thread nD τ).loc main_arg4)) (m ((c : Thread nD τ).loc main_arg6)) := by
  dsimp only [V, V0]
  simp only [hostOps0, hostOps0_1, hostOps0_2, List.flatten_cons, List.flatten_nil, List.append_nil, List.cons_append, List.nil_append]
  after_results_simp <;> rfl

end Cert.KernelIdeal.PrefixNodes

end
-- ==== Proof.KernelPrefixAgg.lean ====
/-
  What the kernel's program has computed on the host when its region is entered: the aggregated messages.

  The region's second operand: for every edge the source node's features scaled by the edge's weight, summed into the edge's target
  row of a zero array (a gather along the sources, a product with the broadcast weights, a scatter-add along the targets). It is
  the reference's own stage of the same arguments.
-/
import proofs.«166277_j31078383354018_1_alg».proof.Proof.Gen.KernelIdeal.Frame
import proofs.«166277_j31078383354018_1_alg».proof.Proof.Gen.ReferenceIdeal.Read
import Idealize.ShloMosaic.Lib.StableHlo.Run

noncomputable section

namespace Cert.KernelIdeal.PrefixAgg

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

set_option maxRecDepth 8192 in
set_option maxHeartbeats 4000000 in
/-- The aggregated messages, the region's second operand, are the reference's stage. -/
theorem agg_eq (c : Dev nD) :
    V m c main_v46 = Cert.ReferenceIdeal.Read.val_main_v46 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  dsimp only [V, V0]
  simp only [hostOps0, hostOps0_1, hostOps0_2, List.flatten_cons, List.flatten_nil, List.append_nil, List.cons_append, List.nil_append]
  after_results_simp <;> rfl

end Cert.KernelIdeal.PrefixAgg

end
-- ==== Proof.KernelTail.lean ====
/-
  The host operations after the region, read from ANY buffer contents.

  After its region the kernel's program runs, on the host, the same chain the reference runs after its hyperbolic tangent: reshape
  the 65536 × 256 array to 32 × 2048 × 256, clip the slot numbers to `0 … 2047`, gather the rows at the clipped slots, keep them
  where the slot is a real one and put zero elsewhere; and it adds `T + taus`. Started from any contents `F` of the buffers, what
  these lines leave depends on `F` at three buffers only — the region's output array, the mask of real slots and the slot
  numbers (both computed before the region) — and on the two integer arguments. Where `F` holds there an array `X`, and the
  reference's own mask and slot stages, the lines leave the reference's chain `slots` applied to `X`: the two chains are the same
  operations on the same values, and neither is opened.
-/
import proofs.«166277_j31078383354018_1_alg».proof.Proof.Gen.KernelIdeal.Launch
import proofs.«166277_j31078383354018_1_alg».proof.Proof.ReferenceDense
import Idealize.ShloMosaic.Lib.StableHlo.Run

noncomputable section

namespace Cert.KernelIdeal.Tail

open Cert.KernelIdeal Cert.KernelIdeal.Gen
open Idealize.ShloMosaic Idealize.ShloMosaic.TcCoe Idealize.SL.Sem Idealize.ShloMosaic.StableHlo

/-- The lines after the region, as one list. -/
abbrev tailOps : List (HloOp τ sig (Elt Ideal)) :=
  List.flatten [hostOps1, hostOps1_1, hostOps1_2, hostOps1_3, hostOps1_4]

set_option maxRecDepth 8192 in
set_option maxHeartbeats 4000000 in
/-- The first result: the reference's chain applied to whatever array the region left. -/
theorem slots_eq (F : Valuation τ sig (Elt Ideal))
    (X : (⟨S65536x256, .f32⟩ : BufTy).Contents (Elt Ideal)) (x4 x6 : (⟨S32, .i32⟩ : BufTy).Contents (Elt Ideal))
    (hX : F (Proc.devRef .tc main_v47) = X)
    (hmask : F (Proc.devRef .tc main_v5) = Cert.ReferenceIdeal.Read.val_main_v5 (F := Ideal) x4)
    (hslot : F (Proc.devRef .tc main_v10) = Cert.ReferenceIdeal.Read.val_main_v10 (F := Ideal) x6) :
    StableHlo.after tailOps F (Proc.devRef .tc main_v68) = Cert.ReferenceIdeal.DenseValue.slots X x4 x6 := by
  simp only [tailOps, hostOps1, hostOps1_1, hostOps1_2, hostOps1_3, hostOps1_4, List.flatten_cons, List.flatten_nil, List.append_nil,
    List.cons_append, List.nil_append]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [hX, hmask, hslot]
  rfl

set_option maxRecDepth 8192 in
set_option maxHeartbeats 4000000 in
/-- The node array is not written after the region. -/
theorem nodes_kept (F : Valuation τ sig (Elt Ideal)) :
    StableHlo.after tailOps F (Proc.devRef .tc main_v28) = F (Proc.devRef .tc main_v28) := by
  simp only [tailOps, hostOps1, hostOps1_1, hostOps1_2, hostOps1_3, hostOps1_4, List.flatten_cons, List.flatten_nil, List.append_nil,
    List.cons_append, List.nil_append]
  after_results_simp <;> rfl

set_option maxRecDepth 8192 in
set_option maxHeartbeats 4000000 in
/-- The last result is `T + taus`, read from the two integer arguments. -/
theorem sum_eq (F : Valuation τ sig (Elt Ideal)) :
    StableHlo.after tailOps F (Proc.devRef .tc main_v69)
      = addi (F (Proc.devRef .tc main_arg6) : (⟨S32, .i32⟩ : BufTy).Contents (Elt Ideal)) (F (Proc.devRef .tc main_arg4)) := by
  simp only [tailOps, hostOps1, hostOps1_1, hostOps1_2, hostOps1_3, hostOps1_4, List.flatten_cons, List.flatten_nil, List.append_nil,
    List.cons_append, List.nil_append]
  after_results_simp <;> rfl

end Cert.KernelIdeal.Tail

end
-- ==== Proof.KernelResults.lean ====
/-
  The kernel's program, read whole: each result as a function of the argument arrays.

  Its first result is the reference's closing chain `slots` applied to the dense step of the reference's own `flat` and `agg` stages
  and of `W`: the host lines before the region compute those stages (they are the reference's lines), the region turns them into
  the dense step of the three arrays (`DenseValue.final`), and the host lines after the region are the reference's closing chain.
  Its second result is the node array after the insert, its third and fourth the edge and weight arguments untouched, its fifth
  `T + taus`. The seven argument arrays end as they started.
-/
import proofs.«166277_j31078383354018_1_alg».proof.Proof.KernelDense
import proofs.«166277_j31078383354018_1_alg».proof.Proof.KernelPrefixSlots
import proofs.«166277_j31078383354018_1_alg».proof.Proof.KernelPrefixNodes
import proofs.«166277_j31078383354018_1_alg».proof.Proof.KernelPrefixAgg
import proofs.«166277_j31078383354018_1_alg».proof.Proof.KernelTail

noncomputable section

namespace Cert.KernelIdeal.Results

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The first result: the closing chain of the dense step of `flat`, `agg` and `W`. -/
def slotRows (c : Dev nD) : Buf (Elt Ideal) ((c : Thread nD τ).loc main_v68) :=
  Cert.ReferenceIdeal.DenseValue.slots
    (DenseStep.dense (M := 65536) (Cert.ReferenceIdeal.Read.val_main_v29 (F := Ideal) (m ((c : Thread nD τ).loc main_arg0)) (m ((c : Thread nD τ).loc main_arg1)) (m ((c : Thread nD τ).loc main_arg4)) (m ((c : Thread nD τ).loc main_arg6)))
      (Cert.ReferenceIdeal.Read.val_main_v46 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) (m ((c : Thread nD τ).loc main_arg3)))
    (m ((c : Thread nD τ).loc main_arg4)) (m ((c : Thread nD τ).loc main_arg6))

/-- The second result: the node array after the insert. -/
def nodesAfter (c : Dev nD) : Buf (Elt Ideal) ((c : Thread nD τ).loc main_v28) :=
  Cert.ReferenceIdeal.Read.val_main_v28 (F := Ideal) (m ((c : Thread nD τ).loc main_arg0)) (m ((c : Thread nD τ).loc main_arg1)) (m ((c : Thread nD τ).loc main_arg4)) (m ((c : Thread nD τ).loc main_arg6))

/-- The fifth result: `T + taus`. -/
def slotEnd (c : Dev nD) : Buf (Elt Ideal) ((c : Thread nD τ).loc main_v69) :=
  addi ((m ((c : Thread nD τ).loc main_arg6)) : (⟨S32, .i32⟩ : BufTy).Contents (Elt Ideal)) (m ((c : Thread nD τ).loc main_arg4))

/-- The array the region leaves is the dense step of the reference's stages. -/
theorem region_eq (c : Dev nD) :
    (dats m 0 c).arrAt 3 cfg0.N = DenseStep.dense (M := 65536) (Cert.ReferenceIdeal.Read.val_main_v29 (F := Ideal) (m ((c : Thread nD τ).loc main_arg0)) (m ((c : Thread nD τ).loc main_arg1)) (m ((c : Thread nD τ).loc main_arg4)) (m ((c : Thread nD τ).loc main_arg6)))
      (Cert.ReferenceIdeal.Read.val_main_v46 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) (m ((c : Thread nD τ).loc main_arg3)) := by
  rw [DenseValue.final m c, PrefixNodes.flat_eq m c, PrefixAgg.agg_eq m c, V_main_arg3 m c]

theorem slotRows_eq (c : Dev nD) :
    Pipeline.afterTail₀ cfgs (dats m) 0 (V0 m) [hostOps1, hostOps1_1, hostOps1_2, hostOps1_3, hostOps1_4] c main_v68 = slotRows m c := by
  unfold Pipeline.afterTail₀
  exact Tail.slots_eq _ _ _ _
    ((Pipeline.withArrays_arr spec0 launch0.win.arr_inj c _ _ 3).trans (region_eq m c))
    ((Pipeline.withArrays_of_ne _ c (V0 m c) _ main_v5 (by exact (by decide : ∀ w, Pipeline.arrRef spec0 w ≠ main_v5))).trans (PrefixSlots.mask_eq m c))
    ((Pipeline.withArrays_of_ne _ c (V0 m c) _ main_v10 (by exact (by decide : ∀ w, Pipeline.arrRef spec0 w ≠ main_v10))).trans (PrefixSlots.slot_eq m c))

theorem nodesAfter_eq (c : Dev nD) :
    Pipeline.afterTail₀ cfgs (dats m) 0 (V0 m) [hostOps1, hostOps1_1, hostOps1_2, hostOps1_3, hostOps1_4] c main_v28 = nodesAfter m c := by
  unfold Pipeline.afterTail₀
  exact (Tail.nodes_kept _).trans
    ((Pipeline.withArrays_of_ne _ c (V0 m c) _ main_v28 (by exact (by decide : ∀ w, Pipeline.arrRef spec0 w ≠ main_v28))).trans (PrefixNodes.nodes_eq m c))

theorem slotEnd_eq (c : Dev nD) :
    Pipeline.afterTail₀ cfgs (dats m) 0 (V0 m) [hostOps1, hostOps1_1, hostOps1_2, hostOps1_3, hostOps1_4] c main_v69 = slotEnd m c := by
  unfold Pipeline.afterTail₀
  refine (Tail.sum_eq _).trans ?_
  rw [Pipeline.withArrays_of_ne _ c (V0 m c) _ main_arg6 (by exact (by decide : ∀ w, Pipeline.arrRef spec0 w ≠ main_arg6)),
    Pipeline.withArrays_of_ne _ c (V0 m c) _ main_arg4 (by exact (by decide : ∀ w, Pipeline.arrRef spec0 w ≠ main_arg4))]
  exact congrArg₂ addi (V_main_arg6 m c) (V_main_arg4 m c)

/-- THE KERNEL'S RUN, READ: every weakly fair execution ends with the five results at these functions of the arguments and the
    arguments unchanged. -/
theorem run : θ_run defs (onTc (τ := τ) (main (F := Ideal))) ⟨m, fun _ => 0, ρ⟩ (fun r => ∀ c : Dev nD,
      r.2.mem ((c : Thread nD τ).loc main_v68) = slotRows m c
      ∧ r.2.mem ((c : Thread nD τ).loc main_v28) = nodesAfter m c
      ∧ r.2.mem ((c : Thread nD τ).loc main_arg5) = m ((c : Thread nD τ).loc main_arg5)
      ∧ r.2.mem ((c : Thread nD τ).loc main_arg2) = m ((c : Thread nD τ).loc main_arg2)
      ∧ r.2.mem ((c : Thread nD τ).loc main_v69) = slotEnd m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun r h c => ⟨
      ((h c).2 main_v68 (Pipeline.mem_restRefs_of main_v68 (by decide) (by decide))).trans (slotRows_eq m c),
      ((h c).2 main_v28 (Pipeline.mem_restRefs_of main_v28 (by decide) (by decide))).trans (nodesAfter_eq m c),
      ((h c).2 main_arg5 (Pipeline.mem_restRefs_of main_arg5 (by decide) (by decide))).trans (W_main_arg5 m (dats m) c),
      ((h c).2 main_arg2 (Pipeline.mem_restRefs_of main_arg2 (by decide) (by decide))).trans (W_main_arg2 m (dats m) c),
      ((h c).2 main_v69 (Pipeline.mem_restRefs_of main_v69 (by decide) (by decide))).trans (slotEnd_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Results

end
-- ==== Proof.lean ====
/-
  The kernel and its reference compute the same five results from the same seven arguments, over the extended reals.

  Both programs insert the new memories into the node array (`nodes[b, T[b] + i] = x[b, i]` for `i < taus[b]`), flatten it to
  65536 × 256 node features `flat`, gather the features along the edges' sources, scale them by the edge weights and sum them into
  the edges' targets to get the aggregated messages `agg`, compute `tanh ((flat + agg) · W)`, gather the rows of that array at the
  newly inserted slots (clipped, masked to zero where the slot is padding), and return with it the node array, the edges and
  weights untouched, and `T + taus`. They differ in one place only: the reference computes `tanh ((flat + agg) · W)` on the host, as
  one `dot_general` over all 65536 rows; the kernel computes it in a region of 32 grid points, each adding a block of 2048 rows of
  `flat` and `agg`, multiplying by the whole of `W` into a zero accumulator and taking the hyperbolic tangent.

  Over the extended reals a format is no change, both matrix products are the finite sum over the 256 contracted coordinates,
  and both tangents are one function; row `r` of the product depends on row `r` of `flat + agg` only, so the 32 blocks of rows are
  the blocks of rows of the one product, and they tile the array. Hence the region leaves exactly the reference's array, entry by
  entry — the same sum of the same products, with no algebraic law of the extended reals needed and so no use of the
  precondition's finiteness — and the host lines around the region are the reference's lines, applied to equal values.

  The three frames: the two kernels' are the generated frame certificates; the reference has no region, and its frame is its
  generated run with the results dropped. The idealization rewrote nothing, so its conjunct is `True`.
-/
import proofs.«166277_j31078383354018_1_alg».proof.Defs
import proofs.«166277_j31078383354018_1_alg».proof.Proof.Gen.Kernel
import proofs.«166277_j31078383354018_1_alg».proof.Proof.Gen.Kernel.Frame
import proofs.«166277_j31078383354018_1_alg».proof.Proof.Gen.KernelIdeal
import proofs.«166277_j31078383354018_1_alg».proof.Proof.Gen.KernelIdeal.Frame
import proofs.«166277_j31078383354018_1_alg».proof.Proof.Gen.ReferenceIdeal
import proofs.«166277_j31078383354018_1_alg».proof.Proof.Gen.Pre_finite_inputs
import proofs.«166277_j31078383354018_1_alg».proof.Proof.Gen.ReferenceIdeal.Run
import proofs.«166277_j31078383354018_1_alg».proof.Proof.Gen.ReferenceIdeal.Read
import proofs.«166277_j31078383354018_1_alg».proof.Proof.ReferenceDense
import proofs.«166277_j31078383354018_1_alg».proof.Proof.KernelResults
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2.2.2.2) (Cert.ReferenceIdeal.Value.run (F := Ideal) m ρ)

theorem preserves : Cert.preserves_Kernel_KernelIdeal := trivial

/-- From memories that agree on the arguments, both idealized programs end with the same five results: the kernel's run read
    (`Results.run`) and the reference's generated run, whose first result is its closing chain of its dense stage, which is the
    dense step of its `flat` and `agg` stages (`ReferenceIdeal.DenseValue`). -/
theorem algebraic : Cert.algebraic_KernelIdeal_ReferenceIdeal := by
  intro m ρ m' ρ' _ hagree
  refine ⟨Cert.KernelIdeal.Results.slotRows m, Cert.KernelIdeal.Results.nodesAfter m,
    fun c => m ((c.tc : Thread Cert.KernelIdeal.nD Cert.KernelIdeal.τ).loc Cert.KernelIdeal.main_arg5),
    fun c => m ((c.tc : Thread Cert.KernelIdeal.nD Cert.KernelIdeal.τ).loc Cert.KernelIdeal.main_arg2),
    Cert.KernelIdeal.Results.slotEnd m, Cert.KernelIdeal.Results.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  obtain ⟨h0, h1, h2, h3, h4, hrest⟩ := h c
  refine ⟨h0.trans ?_, h1.trans ?_, h2.trans a5, h3.trans a2, h4.trans ?_, hrest⟩
  · rw [Cert.ReferenceIdeal.Read.val_main_v70_eq, Cert.ReferenceIdeal.DenseValue.result_eq, Cert.ReferenceIdeal.DenseValue.dense_stage,
      a0, a1, a2, a3, a4, a5, a6]
    rfl
  · refine (Cert.ReferenceIdeal.Read.val_main_v28_eq _ _ _ _).trans ?_
    rw [a0, a1, a4, a6]
    rfl
  · rw [a4, a6]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
